-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x8192 : Shape := ⟨2, ![4096, 8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S8192x4096 .f32) (main_arg1 : FVec F S4096x8192 .f32) (main_arg2 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  main_v13
-- ==== Kernel.lean ====
abbrev S8192x4096 : Shape := ⟨2, ![8192, 4096]⟩
abbrev S4096x8192 : Shape := ⟨2, ![4096, 8192]⟩
abbrev S256x4096 : Shape := ⟨2, ![256, 4096]⟩
abbrev S4096x256 : Shape := ⟨2, ![4096, 256]⟩
abbrev S256x1 : Shape := ⟨2, ![256, 1]⟩
abbrev S256x512 : Shape := ⟨2, ![256, 512]⟩
abbrev S512x256 : Shape := ⟨2, ![512, 256]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x8192, .f32⟩
  | .hbm, ⟨2, _⟩ => ⟨S8192x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v7 : BitVec 32 := Scalar.muli arg5 c512_i32
  v7
def k0_off1 (k0_t1 : Fin k0_t1_loop.trips) : Fin 2 → Nat :=
  let c0 : Index := 0#32
  let c0_i32 : BitVec 32 := 0#32
  let c1_i32 : BitVec 32 := 1#32
  let arg5 : BitVec 32 := Scf.iv c0_i32 c1_i32 k0_t1
  let c512_i32 : BitVec 32 := 512#32
  let v7 : BitVec 32 := Scalar.muli arg5 c512_i32
  let v8 : BitVec 32 := v7
  let v9 : Index := Scalar.indexCast v8
  ![0, v9.toNat]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c512_i32 : BitVec 32 := 512#32
  let v7 : BitVec 32 := Scalar.muli arg5 c512_i32
  let v8 : BitVec 32 := v7
  let v11 : Index := Scalar.indexCast v8
  let c0_10 : Index := 0#32
  ![v11.toNat, 0]
@[reducible] def k0_t2_loop : Scf.Loop 32 :=
  let c0_i32_2 : BitVec 32 := 0#32
  let c8_i32_3 : BitVec 32 := 8#32
  let v4 : BitVec 32 := Scalar.addi c0_i32_2 c8_i32_3
  let c1_i32_4 : BitVec 32 := 1#32
  ⟨c0_i32_2, v4, c1_i32_4⟩
def k0_mult2 (k0_t2 : Fin k0_t2_loop.trips) : BitVec 32 :=
  let c0_i32_2 : BitVec 32 := 0#32
  let c1_i32_4 : BitVec 32 := 1#32
  let arg5 : BitVec 32 := Scf.iv c0_i32_2 c1_i32_4 k0_t2
  let c512_i32 : BitVec 32 := 512#32
  let v7 : BitVec 32 := Scalar.muli arg5 c512_i32
  v7
def k0_off3 (k0_t2 : Fin k0_t2_loop.trips) : Fin 2 → Nat :=
  let c0 : Index := 0#32
  let c0_i32_2 : BitVec 32 := 0#32
  let c1_i32_4 : BitVec 32 := 1#32
  let arg5 : BitVec 32 := Scf.iv c0_i32_2 c1_i32_4 k0_t2
  let c512_i32 : BitVec 32 := 512#32
  let v7 : BitVec 32 := Scalar.muli arg5 c512_i32
  let v8 : BitVec 32 := v7
  let v9 : Index := Scalar.indexCast v8
  ![0, v9.toNat]
@[reducible] def k0_t3_loop : Scf.Loop 32 :=
  let c0_i32_6 : BitVec 32 := 0#32
  let c8_i32_7 : BitVec 32 := 8#32
  let v6 : BitVec 32 := Scalar.addi c0_i32_6 c8_i32_7
  let c1_i32_8 : BitVec 32 := 1#32
  ⟨c0_i32_6, v6, c1_i32_8⟩
def k0_mult3 (k0_t3 : Fin k0_t3_loop.trips) : BitVec 32 :=
  let c0_i32_6 : BitVec 32 := 0#32
  let c1_i32_8 : BitVec 32 := 1#32
  let arg5 : BitVec 32 := Scf.iv c0_i32_6 c1_i32_8 k0_t3
  let c512_i32 : BitVec 32 := 512#32
  let v7 : BitVec 32 := Scalar.muli arg5 c512_i32
  v7
def k0_off4 (k0_t3 : Fin k0_t3_loop.trips) : Fin 2 → Nat :=
  let c0 : Index := 0#32
  let c0_i32_6 : BitVec 32 := 0#32
  let c1_i32_8 : BitVec 32 := 1#32
  let arg5 : BitVec 32 := Scf.iv c0_i32_6 c1_i32_8 k0_t3
  let c512_i32 : BitVec 32 := 512#32
  let v7 : BitVec 32 := Scalar.muli arg5 c512_i32
  let v8 : BitVec 32 := v7
  let v9 : Index := Scalar.indexCast v8
  ![0, v9.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  h_S256x512 : 0 < S256x512.numel
  h_S512x256 : 0 < S512x256.numel
  transposes_S512x256_p1_0_S256x512 : S512x256.Transposes [1, 0] S256x512
  reduces_S256x512_S256 : S256x512.Reduces [1] S256
  shapeCasts_S256_S256x1 : S256.ShapeCasts S256x1
  shapeCasts_S256x512_S256x512 : S256x512.ShapeCasts S256x512
  broadcasts_S256x1_S256x512 : S256x1.Broadcasts S256x512
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S256x512.size a ≤ S256x4096.size a
  k0_off2_inb : ∀ k0_t1 : Fin k0_t1_loop.trips, ∀ a, (k0_off2 k0_t1) a + S512x256.size a ≤ S4096x256.size a
  k0_t2_ok : k0_t2_loop.OK
  k0_mult2_dvd : ∀ k0_t2 : Fin k0_t2_loop.trips, 512 ∣ (k0_mult2 k0_t2).toNat
  k0_off3_inb : ∀ k0_t2 : Fin k0_t2_loop.trips, ∀ a, (k0_off3 k0_t2) a + S256x512.size a ≤ S256x4096.size a
  k0_t3_ok : k0_t3_loop.OK
  k0_mult3_dvd : ∀ k0_t3 : Fin k0_t3_loop.trips, 512 ∣ (k0_mult3 k0_t3).toNat
  k0_off4_inb : ∀ k0_t3 : Fin k0_t3_loop.trips, ∀ a, (k0_off4 k0_t3) a + S256x512.size a ≤ S256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x8192.size a
  hwx0_1 : ∀ i : grid0.Coords, EltTy.bits .f32 = 32 ∨ (Rect.block (s := S4096x8192) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x8192 : Shape := ⟨2, ![4096, 8192]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x8192, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x4096, .f32⟩
  | .hbm, ⟨23, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  transposes_S4096x8192_S8192x4096_1_0 : S4096x8192.Transposes [1, 0] S8192x4096
  bcast_S_S8192x4096 : S_.BroadcastsInDim S8192x4096 (![] : Fin 0 → Fin S8192x4096.rank)
  reducesTo_S8192x4096_S8192_d1 : S8192x4096.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)

variable [Facts₀]

class Facts : Prop extends Facts₀ where

variable [Facts]
-- ==== Proof.KernelRebase.lean ====
/-
  The first loop of the body writes the row block's eight column chunks [256, 512] at columns 512 k, k = 0 … 7,
  into the output's staging buffer: together they cover the whole [256, 4096] block. So what that buffer holds
  after the loop does not depend on what it held before: the eight writes over ANY earlier contents are the
  eight writes over a fixed filler. The later loops read the buffer back; stating the buffer this way at the
  first loop's exit makes what they read a term of the three input blocks alone.
-/
import proofs.«158101_j66486093742705_2_alg».proof.Proof.Gen.Kernel.Loops
import Idealize.ShloMosaic.Lib.Exec

set_option maxRecDepth 16384

noncomputable section

namespace Cert.Kernel.Rebase

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The whole [256, 4096] box cut after every 512 columns; the chunk of columns 512 k … 512 k + 511 lies in the
    rectangle of trip k, which is entry 7 - k of the list (the last trip's piece comes first). -/
def chunks : LoadRect.Cov :=
  .split 1 512 (.leaf 7) (.split 1 512 (.leaf 6) (.split 1 512 (.leaf 5) (.split 1 512 (.leaf 4)
    (.split 1 512 (.leaf 3) (.split 1 512 (.leaf 2) (.split 1 512 (.leaf 1) (.leaf 0)))))))

/-- The rectangles of the eight trips' pieces cover the block (checked on the rectangles alone). -/
theorem chunks_cover (𝒱 : Variants) (c : Dev nD) (bd : Option 𝒱.V) (i : grid0.Coords) (arg1 : Memref sig .tc .vmem S256x4096 .f32) (harg1 : arg1.IsWhole) (arg2 : Memref sig .tc .vmem S4096x256 .f32) (harg2 : arg2.IsWhole) (arg3 : Memref sig .tc .vmem S256x4096 .f32) (harg3 : arg3.IsWhole) (arg4 : Memref sig .tc .vmem S256x4096 .f32) (harg4 : arg4.IsWhole) (X_arg1 : BufTy.Contents (Elt F) arg1.view.ty) (X_arg2 : BufTy.Contents (Elt F) arg2.view.ty) (X_arg3 : BufTy.Contents (Elt F) arg3.view.ty) (init : FVec F S256x1 .f32) :
    LoadRect.covChk (((st_k0_t1 (F := F) 𝒱 c bd i arg1 harg1 arg2 harg2 arg3 harg3 arg4 harg4 X_arg1 X_arg2 X_arg3 init (Scf.trips k0_t1_loop.lb k0_t1_loop.ub k0_t1_loop.st)).2).map Sigma.fst)
      (LoadRect.whole S256x4096) chunks = true := by
  sl_kernel_rfl

/-- At the first loop's exit the output's staging buffer holds the eight chunks written over a fixed filler. -/
instance exit_k0_t1 (𝒱 : Variants) (c : Dev nD) (bd : Option 𝒱.V) (E : Set ℕ) (i : grid0.Coords) (arg1 : Memref sig .tc .vmem S256x4096 .f32) (harg1 : arg1.IsWhole) (arg2 : Memref sig .tc .vmem S4096x256 .f32) (harg2 : arg2.IsWhole) (arg3 : Memref sig .tc .vmem S256x4096 .f32) (harg3 : arg3.IsWhole) (arg4 : Memref sig .tc .vmem S256x4096 .f32) (harg4 : arg4.IsWhole) (X_arg1 : BufTy.Contents (Elt F) arg1.view.ty) (X_arg2 : BufTy.Contents (Elt F) arg2.view.ty) (X_arg3 : BufTy.Contents (Elt F) arg3.view.ty) (G_arg4 : BufTy.Contents (Elt F) arg4.view.ty) (init : FVec F S256x1 .f32) :
    LoopExit (loopInv_k0_t1 (F := F) 𝒱 c bd E i arg1 harg1 arg2 harg2 arg3 harg3 arg4 harg4 X_arg1 X_arg2 X_arg3 G_arg4 init) where
  post acc := iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3)
    ∗ (arg4.view.loc (c : Thread nD τ) ↦[arg4.view.set]{fullShare} arg4.view.writes (Elt F) arg4.view.junk (st_k0_t1 (F := F) 𝒱 c bd i arg1 harg1 arg2 harg2 arg3 harg3 arg4 harg4 X_arg1 X_arg2 X_arg3 init (Scf.trips k0_t1_loop.lb k0_t1_loop.ub k0_t1_loop.st)).2)
    ∗ ⌜acc = (st_k0_t1 (F := F) 𝒱 c bd i arg1 harg1 arg2 harg2 arg3 harg3 arg4 harg4 X_arg1 X_arg2 X_arg3 init (Scf.trips k0_t1_loop.lb k0_t1_loop.ub k0_t1_loop.st)).1⌝)
  exit acc := by
    show inv_k0_t1 (F := F) 𝒱 c bd i arg1 harg1 arg2 harg2 arg3 harg3 arg4 harg4 X_arg1 X_arg2 X_arg3 G_arg4 init (Scf.trips k0_t1_loop.lb k0_t1_loop.ub k0_t1_loop.st) acc ⊢ _
    rw [← Memref.pointsTo_writes_junk_of_covChk (c : Thread nD τ) arg4 G_arg4 _ fullShare chunks (chunks_cover 𝒱 c bd i arg1 harg1 arg2 harg2 arg3 harg3 arg4 harg4 X_arg1 X_arg2 X_arg3 init)]
    iintro ⟨HR_arg1, HR_arg2, HR_arg3, ⟨%f_arg4, HW_arg4, %h_arg4⟩, %h_acc⟩
    subst h_arg4
    isplitl [HR_arg1]; · iexact HR_arg1
    isplitl [HR_arg2]; · iexact HR_arg2
    isplitl [HR_arg3]; · iexact HR_arg3
    isplitl [HW_arg4]; · iexact HW_arg4
    ipureintro; exact h_acc

end Cert.Kernel.Rebase

end
-- ==== Proof.KernelIdealRebase.lean ====
/-
  The first loop of the body writes the row block's eight column chunks [256, 512] at columns 512 k, k = 0 … 7,
  into the output's staging buffer: together they cover the whole [256, 4096] block. So what that buffer holds
  after the loop does not depend on what it held before: the eight writes over ANY earlier contents are the
  eight writes over a fixed filler. The later loops read the buffer back; stating the buffer this way at the
  first loop's exit makes what they read a term of the three input blocks alone.
-/
import proofs.«158101_j66486093742705_2_alg».proof.Proof.Gen.KernelIdeal.Loops
import Idealize.ShloMosaic.Lib.Exec

set_option maxRecDepth 16384

noncomputable section

namespace Cert.KernelIdeal.Rebase

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The whole [256, 4096] box cut after every 512 columns; the chunk of columns 512 k … 512 k + 511 lies in the
    rectangle of trip k, which is entry 7 - k of the list (the last trip's piece comes first). -/
def chunks : LoadRect.Cov :=
  .split 1 512 (.leaf 7) (.split 1 512 (.leaf 6) (.split 1 512 (.leaf 5) (.split 1 512 (.leaf 4)
    (.split 1 512 (.leaf 3) (.split 1 512 (.leaf 2) (.split 1 512 (.leaf 1) (.leaf 0)))))))

/-- The rectangles of the eight trips' pieces cover the block (checked on the rectangles alone). -/
theorem chunks_cover (𝒱 : Variants) (c : Dev nD) (bd : Option 𝒱.V) (i : grid0.Coords) (arg1 : Memref sig .tc .vmem S256x4096 .f32) (harg1 : arg1.IsWhole) (arg2 : Memref sig .tc .vmem S4096x256 .f32) (harg2 : arg2.IsWhole) (arg3 : Memref sig .tc .vmem S256x4096 .f32) (harg3 : arg3.IsWhole) (arg4 : Memref sig .tc .vmem S256x4096 .f32) (harg4 : arg4.IsWhole) (X_arg1 : BufTy.Contents (Elt F) arg1.view.ty) (X_arg2 : BufTy.Contents (Elt F) arg2.view.ty) (X_arg3 : BufTy.Contents (Elt F) arg3.view.ty) (init : FVec F S256x1 .f32) :
    LoadRect.covChk (((st_k0_t1 (F := F) 𝒱 c bd i arg1 harg1 arg2 harg2 arg3 harg3 arg4 harg4 X_arg1 X_arg2 X_arg3 init (Scf.trips k0_t1_loop.lb k0_t1_loop.ub k0_t1_loop.st)).2).map Sigma.fst)
      (LoadRect.whole S256x4096) chunks = true := by
  sl_kernel_rfl

/-- At the first loop's exit the output's staging buffer holds the eight chunks written over a fixed filler. -/
instance exit_k0_t1 (𝒱 : Variants) (c : Dev nD) (bd : Option 𝒱.V) (E : Set ℕ) (i : grid0.Coords) (arg1 : Memref sig .tc .vmem S256x4096 .f32) (harg1 : arg1.IsWhole) (arg2 : Memref sig .tc .vmem S4096x256 .f32) (harg2 : arg2.IsWhole) (arg3 : Memref sig .tc .vmem S256x4096 .f32) (harg3 : arg3.IsWhole) (arg4 : Memref sig .tc .vmem S256x4096 .f32) (harg4 : arg4.IsWhole) (X_arg1 : BufTy.Contents (Elt F) arg1.view.ty) (X_arg2 : BufTy.Contents (Elt F) arg2.view.ty) (X_arg3 : BufTy.Contents (Elt F) arg3.view.ty) (G_arg4 : BufTy.Contents (Elt F) arg4.view.ty) (init : FVec F S256x1 .f32) :
    LoopExit (loopInv_k0_t1 (F := F) 𝒱 c bd E i arg1 harg1 arg2 harg2 arg3 harg3 arg4 harg4 X_arg1 X_arg2 X_arg3 G_arg4 init) where
  post acc := iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3)
    ∗ (arg4.view.loc (c : Thread nD τ) ↦[arg4.view.set]{fullShare} arg4.view.writes (Elt F) arg4.view.junk (st_k0_t1 (F := F) 𝒱 c bd i arg1 harg1 arg2 harg2 arg3 harg3 arg4 harg4 X_arg1 X_arg2 X_arg3 init (Scf.trips k0_t1_loop.lb k0_t1_loop.ub k0_t1_loop.st)).2)
    ∗ ⌜acc = (st_k0_t1 (F := F) 𝒱 c bd i arg1 harg1 arg2 harg2 arg3 harg3 arg4 harg4 X_arg1 X_arg2 X_arg3 init (Scf.trips k0_t1_loop.lb k0_t1_loop.ub k0_t1_loop.st)).1⌝)
  exit acc := by
    show inv_k0_t1 (F := F) 𝒱 c bd i arg1 harg1 arg2 harg2 arg3 harg3 arg4 harg4 X_arg1 X_arg2 X_arg3 G_arg4 init (Scf.trips k0_t1_loop.lb k0_t1_loop.ub k0_t1_loop.st) acc ⊢ _
    rw [← Memref.pointsTo_writes_junk_of_covChk (c : Thread nD τ) arg4 G_arg4 _ fullShare chunks (chunks_cover 𝒱 c bd i arg1 harg1 arg2 harg2 arg3 harg3 arg4 harg4 X_arg1 X_arg2 X_arg3 init)]
    iintro ⟨HR_arg1, HR_arg2, HR_arg3, ⟨%f_arg4, HW_arg4, %h_arg4⟩, %h_acc⟩
    subst h_arg4
    isplitl [HR_arg1]; · iexact HR_arg1
    isplitl [HR_arg2]; · iexact HR_arg2
    isplitl [HR_arg3]; · iexact HR_arg3
    isplitl [HW_arg4]; · iexact HW_arg4
    ipureintro; exact h_acc

end Cert.KernelIdeal.Rebase

end
-- ==== Proof.KernelTiles.lean ====
/-
  The three loops of the body, each as a list of eight tiles.

  Every trip k of every loop stores ONE tile: the [256, 512] chunk of columns 512 k … 512 k + 511 of the output block.
  The first loop's tile is the chunk of the product x computed from the chunks of the three input blocks; the second
  loop's tile is exp (chunk - m) of the chunk it finds there, m the first loop's carried value; the third loop's tile
  is the chunk it finds divided by s, the second loop's carried value. A loop's list after n trips is therefore the
  list of its first n tiles, newest first, and its carried value is given by a recursion over the trips.
-/
import proofs.«158101_j66486093742705_2_alg».proof.Proof.Gen.KernelIdeal.Loops
import Idealize.ShloMosaic.Lib.WritesUnit

noncomputable section

namespace Cert.KernelIdeal.Tiles

open Cert.KernelIdeal Cert.KernelIdeal.Gen
open Idealize.ShloMosaic Idealize.ShloMosaic.TcCoe Idealize.SL.Sem

variable {F : FTy → Type} [FloatOps F]

/-! ## The first loop: the chunks of the product -/

section First

variable (𝒱 : Variants) (c : Dev nD) (bd : Option 𝒱.V) (i : grid0.Coords) (arg1 : Memref sig .tc .vmem S256x4096 .f32) (harg1 : arg1.IsWhole) (arg2 : Memref sig .tc .vmem S4096x256 .f32) (harg2 : arg2.IsWhole) (arg3 : Memref sig .tc .vmem S256x4096 .f32) (harg3 : arg3.IsWhole) (arg4 : Memref sig .tc .vmem S256x4096 .f32) (harg4 : arg4.IsWhole)
variable (X1 : BufTy.Contents (Elt F) arg1.view.ty) (X2 : BufTy.Contents (Elt F) arg2.view.ty) (X3 : BufTy.Contents (Elt F) arg3.view.ty)

/-- The chunks of the three input blocks that trip k loads. -/
def ld1 (k : Fin k0_t1_loop.trips) : Vec F S256x512 .f32 :=
  View.readAt (Elt F) arg1.view (Rect.unit (s := S256x4096) (k0_off1 k) S256x512.size (k0_off1_inb k)).toLoadRect X1
def ld2 (k : Fin k0_t1_loop.trips) : Vec F S512x256 .f32 :=
  View.readAt (Elt F) arg2.view (Rect.unit (s := S4096x256) (k0_off2 k) S512x256.size (k0_off2_inb k)).toLoadRect X2
def ld3 (k : Fin k0_t1_loop.trips) : Vec F S256x512 .f32 :=
  View.readAt (Elt F) arg3.view (Rect.unit (s := S256x4096) (k0_off1 k) S256x512.size (k0_off1_inb k)).toLoadRect X3

/-- Trip k's one piece and what it yields. -/
theorem tripL1 (k : Fin k0_t1_loop.trips) (acc : FVec F S256x1 .f32) :
    tripL_k0_t1 (F := F) 𝒱 c bd i arg1 harg1 arg2 harg2 arg3 harg3 arg4 harg4 X1 X2 X3 k acc
      = [⟨Rect.unit (s := S256x4096) (k0_off1 k) S256x512.size (k0_off1_inb k),
          k0_pay2 (ld1 arg1 X1 k) (ld2 arg2 X2 k) (ld3 arg3 X3 k)⟩] := by
  unfold tripL_k0_t1; unfold trip_k0_t1; rfl

theorem tripR1 (k : Fin k0_t1_loop.trips) (acc : FVec F S256x1 .f32) :
    tripR_k0_t1 (F := F) 𝒱 c bd i arg1 harg1 arg2 harg2 arg3 harg3 arg4 harg4 X1 X2 X3 k acc = k0_pay3 acc (ld1 arg1 X1 k) (ld2 arg2 X2 k) (ld3 arg3 X3 k) := by
  unfold tripR_k0_t1; unfold trip_k0_t1; rfl

/-- The first loop's pieces after n trips: its first n tiles. -/
theorem pieces1 (init : FVec F S256x1 .f32) (n : ℕ) (hn : n ≤ k0_t1_loop.trips) :
    (st_k0_t1 (F := F) 𝒱 c bd i arg1 harg1 arg2 harg2 arg3 harg3 arg4 harg4 X1 X2 X3 init n).2
      = View.tilePieces (s := S256x4096) (e := .f32) (Val := Elt F) S256x512.size (fun k => k0_off1 k) k0_off1_inb
          (fun k => k0_pay2 (ld1 arg1 X1 k) (ld2 arg2 X2 k) (ld3 arg3 X3 k)) n hn := by
  induction n with
  | zero => rfl
  | succ n ih =>
    have e := (st_k0_t1_succ (F := F) 𝒱 c bd i arg1 harg1 arg2 harg2 arg3 harg3 arg4 harg4 X1 X2 X3 init ⟨n, hn⟩ :
      st_k0_t1 (F := F) 𝒱 c bd i arg1 harg1 arg2 harg2 arg3 harg3 arg4 harg4 X1 X2 X3 init (n + 1) = _)
    rw [e, View.tilePieces_succ, ← ih (Nat.le_of_succ_le hn)]
    show tripL_k0_t1 (F := F) 𝒱 c bd i arg1 harg1 arg2 harg2 arg3 harg3 arg4 harg4 X1 X2 X3 ⟨n, hn⟩ _ ++ _ = _
    rw [tripL1]; rfl

/-- The first loop's carried value after n trips. -/
theorem carried1_succ (init : FVec F S256x1 .f32) (n : ℕ) (hn : n < k0_t1_loop.trips) :
    (st_k0_t1 (F := F) 𝒱 c bd i arg1 harg1 arg2 harg2 arg3 harg3 arg4 harg4 X1 X2 X3 init (n + 1)).1
      = k0_pay3 (st_k0_t1 (F := F) 𝒱 c bd i arg1 harg1 arg2 harg2 arg3 harg3 arg4 harg4 X1 X2 X3 init n).1 (ld1 arg1 X1 ⟨n, hn⟩) (ld2 arg2 X2 ⟨n, hn⟩) (ld3 arg3 X3 ⟨n, hn⟩) := by
  have e := (st_k0_t1_succ (F := F) 𝒱 c bd i arg1 harg1 arg2 harg2 arg3 harg3 arg4 harg4 X1 X2 X3 init ⟨n, hn⟩ :
    st_k0_t1 (F := F) 𝒱 c bd i arg1 harg1 arg2 harg2 arg3 harg3 arg4 harg4 X1 X2 X3 init (n + 1) = _)
  rw [e]
  show tripR_k0_t1 (F := F) 𝒱 c bd i arg1 harg1 arg2 harg2 arg3 harg3 arg4 harg4 X1 X2 X3 ⟨n, hn⟩ _ = _
  rw [tripR1]

end First

/-! ## The second loop: the exponentials of what it finds -/

section Second

variable (𝒱 : Variants) (c : Dev nD) (bd : Option 𝒱.V) (i : grid0.Coords) (arg1 : Memref sig .tc .vmem S256x4096 .f32) (harg1 : arg1.IsWhole) (arg2 : Memref sig .tc .vmem S4096x256 .f32) (harg2 : arg2.IsWhole) (arg3 : Memref sig .tc .vmem S256x4096 .f32) (harg3 : arg3.IsWhole) (arg4 : Memref sig .tc .vmem S256x4096 .f32) (harg4 : arg4.IsWhole)
variable (v2 : FVec F S256x1 .f32) (G : BufTy.Contents (Elt F) arg4.view.ty)

/-- The chunk trip k loads back from the output's buffer holding f. -/
def ld4 (k : Fin k0_t2_loop.trips) (f : BufTy.Contents (Elt F) arg4.view.ty) : Vec F S256x512 .f32 :=
  View.readAt (Elt F) arg4.view (Rect.unit (s := S256x4096) (k0_off3 k) S256x512.size (k0_off3_inb k)).toLoadRect f

theorem tripL2 (k : Fin k0_t2_loop.trips) (acc : FVec F S256x1 .f32) (f : BufTy.Contents (Elt F) arg4.view.ty) :
    tripL_k0_t2 (F := F) 𝒱 c bd i arg1 harg1 arg2 harg2 arg3 harg3 arg4 harg4 v2 k acc f
      = [⟨Rect.unit (s := S256x4096) (k0_off3 k) S256x512.size (k0_off3_inb k), k0_pay5 v2 (ld4 arg4 k f)⟩] := by
  unfold tripL_k0_t2; unfold trip_k0_t2; rfl

theorem tripR2 (k : Fin k0_t2_loop.trips) (acc : FVec F S256x1 .f32) (f : BufTy.Contents (Elt F) arg4.view.ty) :
    tripR_k0_t2 (F := F) 𝒱 c bd i arg1 harg1 arg2 harg2 arg3 harg3 arg4 harg4 v2 k acc f = k0_pay6 v2 acc (ld4 arg4 k f) := by
  unfold tripR_k0_t2; unfold trip_k0_t2; rfl

/-- The second loop's pieces after n trips: its first n tiles, tile k computed from what the trips before k left. -/
theorem pieces2 (init : FVec F S256x1 .f32) (n : ℕ) (hn : n ≤ k0_t2_loop.trips) :
    (st_k0_t2 (F := F) 𝒱 c bd i arg1 harg1 arg2 harg2 arg3 harg3 arg4 harg4 v2 G init n).2
      = View.tilePieces (s := S256x4096) (e := .f32) (Val := Elt F) S256x512.size (fun k => k0_off3 k) k0_off3_inb
          (fun k => k0_pay5 v2 (ld4 arg4 k (arg4.view.writes (Elt F) G (st_k0_t2 (F := F) 𝒱 c bd i arg1 harg1 arg2 harg2 arg3 harg3 arg4 harg4 v2 G init k.val).2))) n hn := by
  induction n with
  | zero => rfl
  | succ n ih =>
    have e := (st_k0_t2_succ (F := F) 𝒱 c bd i arg1 harg1 arg2 harg2 arg3 harg3 arg4 harg4 v2 G init ⟨n, hn⟩ :
      st_k0_t2 (F := F) 𝒱 c bd i arg1 harg1 arg2 harg2 arg3 harg3 arg4 harg4 v2 G init (n + 1) = _)
    rw [e, View.tilePieces_succ, ← ih (Nat.le_of_succ_le hn)]
    show tripL_k0_t2 (F := F) 𝒱 c bd i arg1 harg1 arg2 harg2 arg3 harg3 arg4 harg4 v2 ⟨n, hn⟩ _ _ ++ _ = _
    rw [tripL2]; rfl

theorem carried2_succ (init : FVec F S256x1 .f32) (n : ℕ) (hn : n < k0_t2_loop.trips) :
    (st_k0_t2 (F := F) 𝒱 c bd i arg1 harg1 arg2 harg2 arg3 harg3 arg4 harg4 v2 G init (n + 1)).1
      = k0_pay6 v2 (st_k0_t2 (F := F) 𝒱 c bd i arg1 harg1 arg2 harg2 arg3 harg3 arg4 harg4 v2 G init n).1
          (ld4 arg4 ⟨n, hn⟩ (arg4.view.writes (Elt F) G (st_k0_t2 (F := F) 𝒱 c bd i arg1 harg1 arg2 harg2 arg3 harg3 arg4 harg4 v2 G init n).2)) := by
  have e := (st_k0_t2_succ (F := F) 𝒱 c bd i arg1 harg1 arg2 harg2 arg3 harg3 arg4 harg4 v2 G init ⟨n, hn⟩ :
    st_k0_t2 (F := F) 𝒱 c bd i arg1 harg1 arg2 harg2 arg3 harg3 arg4 harg4 v2 G init (n + 1) = _)
  rw [e]
  show tripR_k0_t2 (F := F) 𝒱 c bd i arg1 harg1 arg2 harg2 arg3 harg3 arg4 harg4 v2 ⟨n, hn⟩ _ _ = _
  rw [tripR2]

end Second

/-! ## The third loop: what it finds, divided by the sum -/

section Third

variable (𝒱 : Variants) (c : Dev nD) (bd : Option 𝒱.V) (i : grid0.Coords) (arg1 : Memref sig .tc .vmem S256x4096 .f32) (harg1 : arg1.IsWhole) (arg2 : Memref sig .tc .vmem S4096x256 .f32) (harg2 : arg2.IsWhole) (arg3 : Memref sig .tc .vmem S256x4096 .f32) (harg3 : arg3.IsWhole) (arg4 : Memref sig .tc .vmem S256x4096 .f32) (harg4 : arg4.IsWhole)
variable (v5 : FVec F S256x1 .f32) (G : BufTy.Contents (Elt F) arg4.view.ty)

/-- The chunk trip k loads back from the output's buffer holding f. -/
def ld5 (k : Fin k0_t3_loop.trips) (f : BufTy.Contents (Elt F) arg4.view.ty) : Vec F S256x512 .f32 :=
  View.readAt (Elt F) arg4.view (Rect.unit (s := S256x4096) (k0_off4 k) S256x512.size (k0_off4_inb k)).toLoadRect f

theorem tripL3 (k : Fin k0_t3_loop.trips) (f : BufTy.Contents (Elt F) arg4.view.ty) :
    tripL_k0_t3 (F := F) 𝒱 c bd i arg1 harg1 arg2 harg2 arg3 harg3 arg4 harg4 v5 k f
      = [⟨Rect.unit (s := S256x4096) (k0_off4 k) S256x512.size (k0_off4_inb k), k0_pay7 v5 (ld5 arg4 k f)⟩] := by
  unfold tripL_k0_t3; unfold trip_k0_t3; rfl

/-- The third loop's pieces after n trips: its first n tiles. -/
theorem pieces3 (n : ℕ) (hn : n ≤ k0_t3_loop.trips) :
    pb_k0_t3 (F := F) 𝒱 c bd i arg1 harg1 arg2 harg2 arg3 harg3 arg4 harg4 v5 G n
      = View.tilePieces (s := S256x4096) (e := .f32) (Val := Elt F) S256x512.size (fun k => k0_off4 k) k0_off4_inb
          (fun k => k0_pay7 v5 (ld5 arg4 k (arg4.view.writes (Elt F) G (pb_k0_t3 (F := F) 𝒱 c bd i arg1 harg1 arg2 harg2 arg3 harg3 arg4 harg4 v5 G k.val)))) n hn := by
  induction n with
  | zero => rfl
  | succ n ih =>
    have e := (pb_k0_t3_succ (F := F) 𝒱 c bd i arg1 harg1 arg2 harg2 arg3 harg3 arg4 harg4 v5 G ⟨n, hn⟩ :
      pb_k0_t3 (F := F) 𝒱 c bd i arg1 harg1 arg2 harg2 arg3 harg3 arg4 harg4 v5 G (n + 1) = _)
    rw [e, View.tilePieces_succ, ← ih (Nat.le_of_succ_le hn), tripL3]; rfl

end Third

end Cert.KernelIdeal.Tiles

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«158101_j66486093742705_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.Spec.lean ====
/-
  The row softmax of an elementwise product.

  For a query q and a value v of shape [8192, 4096] and a key k of shape [4096, 8192], put
      x(p, d) = ((q(p, d) * k(d, p)) * 2^-6) * v(p, d).
  The result's entry (p, d) is  exp (x(p, d) - M p) / S p,  where M p is the maximum of row p of x (taken from -∞)
  and S p the sum over the row of exp (x(p, ·) - M p). Everything is over the extended reals.

  A row has 4096 entries. Cut into eight chunks of 512, its maximum is the maximum of the chunks' maxima taken one
  chunk after the other from -∞ (`cmax`), and its sum the chunks' sums added one after the other from 0 (`csum`).
-/
import Idealize.ShloMosaic.PureOps.Ideal
import Idealize.ShloMosaic.Lib.ValueIdx

noncomputable section

namespace Cert.Softmax

open Idealize.ShloMosaic Idealize.ShloMosaic.ValueIdx
open scoped BigOperators

/-- The factor 2^-6, as the word the kernel writes. -/
def scale : EReal := Ideal.ofBits .f32 0x3C800000#32

/-- -∞, as the word both programs write. -/
def negInf : EReal := Ideal.ofBits .f32 0xFF800000#32

/-- The maximum of a row, taken from -∞. -/
def rowMax (x : Fin 4096 → EReal) : EReal := (Finset.univ : Finset (Fin 4096)).fold max negInf x

/-- The row's exponentials relative to its maximum. -/
def rowExp (x : Fin 4096 → EReal) (d : Fin 4096) : EReal := Ideal.exp (x d - rowMax x)

/-- Their sum. -/
def rowSum (x : Fin 4096 → EReal) : EReal := ∑ d : Fin 4096, rowExp x d

/-- The softmax of a row at entry d. -/
def rowSoftmax (x : Fin 4096 → EReal) (d : Fin 4096) : EReal := Ideal.div (rowExp x d) (rowSum x)

/-- Row p of x, from the three whole arrays. -/
def X (q : (⟨2, ![8192, 4096]⟩ : Shape).Idx → EReal) (k : (⟨2, ![4096, 8192]⟩ : Shape).Idx → EReal)
    (v : (⟨2, ![8192, 4096]⟩ : Shape).Idx → EReal) (p : Fin 8192) (d : Fin 4096) : EReal :=
  ((q (ix2 p d) * k (ix2 d p)) * scale) * v (ix2 p d)

/-- The whole result, index by index. -/
def G (q : (⟨2, ![8192, 4096]⟩ : Shape).Idx → EReal) (k : (⟨2, ![4096, 8192]⟩ : Shape).Idx → EReal)
    (v : (⟨2, ![8192, 4096]⟩ : Shape).Idx → EReal) : (⟨2, ![8192, 4096]⟩ : Shape).Idx → EReal :=
  fun j => rowSoftmax (X q k v ⟨(j 0).val, idx2_lt0 j⟩) ⟨(j 1).val, idx2_lt1 j⟩

/-- Row r of x inside one block of 256 rows: the query's and value's rows r, the key's column r. -/
def Xb (x0 : (⟨2, ![256, 4096]⟩ : Shape).Idx → EReal) (x1 : (⟨2, ![4096, 256]⟩ : Shape).Idx → EReal)
    (x2 : (⟨2, ![256, 4096]⟩ : Shape).Idx → EReal) (r : Fin 256) (d : Fin 4096) : EReal :=
  ((x0 (ix2 r d) * x1 (ix2 d r)) * scale) * x2 (ix2 r d)

/-- Entry j of chunk k of a row. -/
def chunk (x : Fin 4096 → EReal) (k : Fin 8) (j : Fin 512) : EReal := x ⟨512 * k.val + j.val, by omega⟩

/-- The maximum over the first k chunks, chunk after chunk from -∞. -/
def cmax (x : Fin 4096 → EReal) : ℕ → EReal
  | 0 => negInf
  | k + 1 => if h : k < 8 then max (cmax x k) ((Finset.univ : Finset (Fin 512)).fold max negInf (chunk x ⟨k, h⟩)) else cmax x k

/-- The sum over the first k chunks, chunk after chunk from 0. -/
def csum (e : Fin 4096 → EReal) : ℕ → EReal
  | 0 => 0
  | k + 1 => if h : k < 8 then csum e k + ∑ j : Fin 512, chunk e ⟨k, h⟩ j else csum e k

end Cert.Softmax

end
-- ==== Proof.KernelPayloads.lean ====
/-
  The body's arithmetic read at one entry, over the extended reals.

  With r a row of the block and j a column of a chunk: the product chunk at (r, j) is ((a(r,j) * b(j,r)) * 2^-6) * c(r,j)
  for the loaded chunks a, b, c (b transposed); a trip's running maximum at row r is the maximum of the carried value
  and the chunk's row maximum taken from -∞; the exponential chunk at (r, j) is exp (chunk(r,j) - m(r)); a trip's
  running sum at row r is the carried value plus the chunk's row sum; the quotient chunk at (r, j) is chunk(r,j) / s(r).
-/
import proofs.«158101_j66486093742705_2_alg».proof.Proof.Gen.KernelIdeal.Skeleton
import proofs.«158101_j66486093742705_2_alg».proof.Proof.LibRowReduce
import proofs.«158101_j66486093742705_2_alg».proof.Proof.Spec
import Idealize.ShloMosaic.Lib.ValueIdx
import Idealize.ShloMosaic.Lib.Pipeline.Value
import Idealize.ShloMosaic.PureOps.Ideal.Laws

noncomputable section

namespace Cert.KernelIdeal.Payloads

open Cert.KernelIdeal Cert.KernelIdeal.Gen Cert.Softmax
open Idealize.ShloMosaic Idealize.ShloMosaic.ValueIdx

/-- The product chunk at (r, j). -/
theorem pay2_apply (v10 : Vec Ideal S256x512 .f32) (v12 : Vec Ideal S512x256 .f32) (v14 : Vec Ideal S256x512 .f32)
    (r : Fin 256) (j : Fin 512) :
    k0_pay2 (F := Ideal) v10 v12 v14 (ix2 r j) = ((v10 (ix2 r j) * v12 (ix2 j r)) * scale) * v14 (ix2 r j) := by
  unfold k0_pay2
  show ((v10 (ix2 r j) * transpose S256x512 [1, 0] v12 transposes_S512x256_p1_0_S256x512 (ix2 r j)) * _) * v14 (ix2 r j) = _
  rw [transpose_apply [1, 0] v12 transposes_S512x256_p1_0_S256x512 (ix2 r j) (ix2 j r)
    (fun b => match b with | ⟨0, _⟩ => rfl | ⟨1, _⟩ => rfl)]
  rfl

/-- The initial running maximum is -∞ in every row. -/
theorem pay1_apply (r : Fin 256) : k0_pay1 (F := Ideal) (ix2 r (0 : Fin 1)) = negInf := rfl

/-- A trip's running maximum at row r. -/
theorem pay3_apply (acc : FVec Ideal S256x1 .f32) (v10 : Vec Ideal S256x512 .f32) (v12 : Vec Ideal S512x256 .f32)
    (v14 : Vec Ideal S256x512 .f32) (r : Fin 256) :
    k0_pay3 (F := Ideal) acc v10 v12 v14 (ix2 r (0 : Fin 1))
      = max (acc (ix2 r (0 : Fin 1)))
          ((Finset.univ : Finset (Fin 512)).fold max negInf (fun j => k0_pay2 (F := Ideal) v10 v12 v14 (ix2 r j))) := by
  unfold k0_pay3
  refine congrArg (max (acc (ix2 r (0 : Fin 1)))) ?_
  refine (Cert.LibColumn.shapeCast_a_a1_apply _ shapeCasts_S256_S256x1 r 0).trans ?_
  exact Cert.LibRowReduce.rowMax_apply (k0_pay2 (F := Ideal) v10 v12 v14) 0xFF800000#32 reduces_S256x512_S256 (.inl rfl) rfl r

/-- The exponential chunk at (r, j). -/
theorem pay5_apply (v2 : FVec Ideal S256x1 .f32) (v10 : Vec Ideal S256x512 .f32) (r : Fin 256) (j : Fin 512) :
    k0_pay5 (F := Ideal) v2 v10 (ix2 r j) = Ideal.exp (v10 (ix2 r j) - v2 (ix2 r (0 : Fin 1))) := by
  unfold k0_pay5
  show Ideal.exp (shapeCast S256x512 v10 shapeCasts_S256x512_S256x512 (ix2 r j)
    - broadcastTo S256x512 v2 broadcasts_S256x1_S256x512 (ix2 r j)) = _
  rw [shapeCast_self, Cert.LibColumn.broadcastTo_a1_ab_apply v2 broadcasts_S256x1_S256x512 r j]

/-- The initial running sum is 0 in every row. -/
theorem pay4_apply (r : Fin 256) : k0_pay4 (F := Ideal) (ix2 r (0 : Fin 1)) = 0 :=
  Ideal.ofBits_zero_f32

/-- A trip's running sum at row r. -/
theorem pay6_apply (v2 acc : FVec Ideal S256x1 .f32) (v10 : Vec Ideal S256x512 .f32) (r : Fin 256) :
    k0_pay6 (F := Ideal) v2 acc v10 (ix2 r (0 : Fin 1))
      = acc (ix2 r (0 : Fin 1)) + ∑ j : Fin 512, k0_pay5 (F := Ideal) v2 v10 (ix2 r j) := by
  unfold k0_pay6
  refine congrArg (acc (ix2 r (0 : Fin 1)) + ·) ?_
  refine (Cert.LibColumn.shapeCast_a_a1_apply _ shapeCasts_S256_S256x1 r 0).trans ?_
  exact Cert.LibRowReduce.rowSum_apply (k0_pay5 (F := Ideal) v2 v10) 0x00000000#32 reduces_S256x512_S256 (.inl rfl) rfl r

/-- The quotient chunk at (r, j). -/
theorem pay7_apply (v5 : FVec Ideal S256x1 .f32) (v10 : Vec Ideal S256x512 .f32) (r : Fin 256) (j : Fin 512) :
    k0_pay7 (F := Ideal) v5 v10 (ix2 r j) = Ideal.div (v10 (ix2 r j)) (v5 (ix2 r (0 : Fin 1))) := by
  unfold k0_pay7
  show Ideal.div (shapeCast S256x512 v10 shapeCasts_S256x512_S256x512 (ix2 r j))
    (broadcastTo S256x512 v5 broadcasts_S256x1_S256x512 (ix2 r j)) = _
  rw [shapeCast_self, Cert.LibColumn.broadcastTo_a1_ab_apply v5 broadcasts_S256x1_S256x512 r j]

end Cert.KernelIdeal.Payloads

end
-- ==== Proof.Chunks.lean ====
/-
  The chunked maximum and sum of a row agree with the maximum and sum over the whole row.

  A row of 4096 entries is cut into eight chunks of 512. Entry d lies in chunk d / 512 at place d % 512, so the
  entries met by the first k chunks are exactly those with d < 512 * k. The maximum is handled through its
  universal property (an upper bound of a fold of max is an upper bound of the start value and of every entry),
  the sum through sums over initial segments of ℕ.
-/
import proofs.«158101_j66486093742705_2_alg».proof.Proof.Spec

noncomputable section

namespace Cert.Softmax

open Idealize.ShloMosaic
open scoped BigOperators

/-- The word 0xFF800000 has sign 1, exponent all ones and fraction 0: it denotes -∞. -/
theorem negInf_eq : negInf = (⊥ : EReal) := by
  simp [negInf, Ideal.ofBits, Ideal.ieee]

/-! ### The maximum -/

theorem cmax_zero (x : Fin 4096 → EReal) : cmax x 0 = negInf := rfl

theorem cmax_succ (x : Fin 4096 → EReal) (k : ℕ) (h : k < 8) :
    cmax x (k + 1) = max (cmax x k) ((Finset.univ : Finset (Fin 512)).fold max negInf (chunk x ⟨k, h⟩)) := by
  rw [cmax, dif_pos h]

/-- An upper bound of one chunk's maximum is an upper bound of the chunk's entries. -/
theorem chunkMax_le_iff (x : Fin 4096 → EReal) (k : Fin 8) (c : EReal) :
    (Finset.univ : Finset (Fin 512)).fold max negInf (chunk x k) ≤ c ↔ ∀ j : Fin 512, chunk x k j ≤ c := by
  rw [Finset.fold_max_le, negInf_eq]
  constructor
  · intro h j
    exact h.2 j (Finset.mem_univ j)
  · intro h
    exact ⟨bot_le, fun j _ => h j⟩

/-- An upper bound of the first k chunks' maximum is an upper bound of the entries before 512 * k. -/
theorem cmax_le_iff (x : Fin 4096 → EReal) (c : EReal) :
    ∀ k : ℕ, k ≤ 8 → (cmax x k ≤ c ↔ ∀ d : Fin 4096, d.val < 512 * k → x d ≤ c) := by
  intro k
  induction k with
  | zero =>
    intro _
    rw [cmax_zero, negInf_eq]
    constructor
    · intro _ d hd
      omega
    · intro _
      exact bot_le
  | succ k ih =>
    intro hk
    have h : k < 8 := by omega
    rw [cmax_succ x k h, max_le_iff, ih (by omega), chunkMax_le_iff]
    constructor
    · rintro ⟨h1, h2⟩ d hd
      by_cases hlt : d.val < 512 * k
      · exact h1 d hlt
      · have hj : d.val - 512 * k < 512 := by omega
        have h3 := h2 ⟨d.val - 512 * k, hj⟩
        have hd' : (⟨512 * k + (d.val - 512 * k), by omega⟩ : Fin 4096) = d := by
          apply Fin.ext
          show 512 * k + (d.val - 512 * k) = d.val
          omega
        unfold chunk at h3
        simp only [] at h3
        rw [hd'] at h3
        exact h3
    · intro h1
      constructor
      · intro d hd
        exact h1 d (by omega)
      · intro j
        unfold chunk
        apply h1
        show 512 * k + j.val < 512 * (k + 1)
        omega

theorem cmax_eight (x : Fin 4096 → EReal) : cmax x 8 = rowMax x := by
  apply eq_of_forall_ge_iff
  intro c
  rw [cmax_le_iff x c 8 (le_refl 8), rowMax, Finset.fold_max_le, negInf_eq]
  constructor
  · intro h
    exact ⟨bot_le, fun d _ => h d d.isLt⟩
  · intro h d _
    exact h.2 d (Finset.mem_univ d)

/-! ### The sum -/

/-- A row continued by 0 past its end. -/
def padded (e : Fin 4096 → EReal) (i : ℕ) : EReal := if h : i < 4096 then e ⟨i, h⟩ else 0

theorem padded_of_lt (e : Fin 4096 → EReal) (i : ℕ) (h : i < 4096) : padded e i = e ⟨i, h⟩ := by
  rw [padded, dif_pos h]

theorem csum_zero (e : Fin 4096 → EReal) : csum e 0 = 0 := rfl

theorem csum_succ (e : Fin 4096 → EReal) (k : ℕ) (h : k < 8) :
    csum e (k + 1) = csum e k + ∑ j : Fin 512, chunk e ⟨k, h⟩ j := by
  rw [csum, dif_pos h]

/-- One chunk's sum is the sum of the padded row over the 512 places from 512 * k on. -/
theorem chunkSum_eq (e : Fin 4096 → EReal) (k : Fin 8) :
    ∑ j : Fin 512, chunk e k j = ∑ i ∈ Finset.range 512, padded e (512 * k.val + i) := by
  rw [Finset.sum_range]
  apply Finset.sum_congr rfl
  intro j _
  have hj : 512 * k.val + j.val < 4096 := by omega
  rw [padded_of_lt e _ hj]
  rfl

/-- The first k chunks' sum is the sum of the padded row over the places before 512 * k. -/
theorem csum_eq (e : Fin 4096 → EReal) :
    ∀ k : ℕ, k ≤ 8 → csum e k = ∑ i ∈ Finset.range (512 * k), padded e i := by
  intro k
  induction k with
  | zero =>
    intro _
    rw [csum_zero]
    simp
  | succ k ih =>
    intro hk
    have h : k < 8 := by omega
    rw [csum_succ e k h, ih (by omega), chunkSum_eq, Nat.mul_succ, Finset.sum_range_add]

theorem csum_eight (e : Fin 4096 → EReal) : csum e 8 = ∑ d : Fin 4096, e d := by
  rw [csum_eq e 8 (le_refl 8)]
  show ∑ i ∈ Finset.range 4096, padded e i = ∑ d : Fin 4096, e d
  rw [Finset.sum_range]
  apply Finset.sum_congr rfl
  intro d _
  rw [padded_of_lt e d.val d.isLt]

end Cert.Softmax

end
-- ==== Proof.KernelBlock.lean ====
/-
  What the body leaves in the output block, entry by entry.

  Row r of the block, column d in chunk k = d / 512 at position j = d % 512. The third loop's tile k covers (r, d) and
  no other tile of that loop does, so the entry is the third loop's tile k at (r, j): what that trip found at (r, d),
  divided by the sum s(r). What it found is what the second loop left there — no earlier trip of the third loop
  touched chunk k —, the second loop's tile k at (r, j): exp of what THAT trip found, minus the maximum m(r); and
  what that trip found is the first loop's tile k at (r, j), the product x(r, d). The carried values are the row's
  maximum and the row's sum of exponentials taken chunk after chunk, which are the whole row's. So the entry is the
  softmax of row r of x at d.
-/
import proofs.«158101_j66486093742705_2_alg».proof.Proof.KernelIdealFrame
import proofs.«158101_j66486093742705_2_alg».proof.Proof.KernelTiles
import proofs.«158101_j66486093742705_2_alg».proof.Proof.KernelPayloads
import proofs.«158101_j66486093742705_2_alg».proof.Proof.Chunks
import Idealize.ShloMosaic.Lib.WholeRead
import Idealize.ShloMosaic.Lib.WritesUnit
import Idealize.ShloMosaic.Lib.ValueIdx

noncomputable section

namespace Cert.KernelIdeal.Block

open Cert.KernelIdeal Cert.KernelIdeal.Gen Cert.KernelIdeal.GenP Cert.KernelIdeal.Tiles Cert.KernelIdeal.Payloads Cert.Softmax
open Idealize.ShloMosaic Idealize.ShloMosaic.TcCoe Idealize.SL.Sem Idealize.ShloMosaic.ValueIdx

/-- Each loop runs eight trips. -/
theorem trips1 : k0_t1_loop.trips = 8 := by decide
theorem trips2 : k0_t2_loop.trips = 8 := by decide
theorem trips3 : k0_t3_loop.trips = 8 := by decide

/-! ## A list of column tiles read at an entry -/

section Reads

variable {κ : Kind} {sp : Space} (v : View sig κ sp S256x4096 .f32) (f : v.ty.Contents (Elt Ideal))
variable {NT : ℕ} (off : Fin NT → Fin S256x4096.rank → ℕ) (hoff : ∀ k, off k = ![0, 512 * k.val])
  (inb : ∀ k a, off k a + S256x512.size a ≤ S256x4096.size a)
  (P : Fin NT → (⟨S256x4096.rank, S256x512.size⟩ : Shape).Idx → Elt Ideal .f32)
include hoff

/-- An entry of chunk k, k among the first n tiles, reads tile k at its position in the chunk. -/
theorem read_hit (n : ℕ) (hn : n ≤ NT) (k : Fin NT) (hk : k.val < n) (r : Fin 256) (j : Fin 512) (y : S256x4096.Idx)
    (hy0 : (y 0).val = r.val) (hy1 : (y 1).val = 512 * k.val + j.val) :
    v.read (Elt Ideal) (v.writes (Elt Ideal) f (View.tilePieces S256x512.size off inb P n hn)) y = P k (ix2 r j) := by
  refine View.read_tilePieces v f S256x512.size off inb P n hn y k hk (ix2 r j) (fun a => ?_) (1 : Fin 2) (fun k' hk' => ?_)
  · rw [hoff]
    match a with
    | ⟨0, _⟩ => show (y 0).val = 0 + r.val; omega
    | ⟨1, _⟩ => exact hy1
  · rw [hoff]
    show (y 1).val < 512 * k'.val ∨ 512 * k'.val + 512 ≤ (y 1).val
    have hne : k'.val ≠ k.val := fun h => hk' (Fin.ext h)
    have := j.isLt
    omega

/-- An entry of a chunk past the first n tiles reads what was there before them. -/
theorem read_miss (n : ℕ) (hn : n ≤ NT) (y : S256x4096.Idx) (hy1 : 512 * n ≤ (y 1).val) :
    v.read (Elt Ideal) (v.writes (Elt Ideal) f (View.tilePieces S256x512.size off inb P n hn)) y = v.read (Elt Ideal) f y := by
  induction n with
  | zero => rfl
  | succ n ih =>
    rw [View.tilePieces_succ,
      View.read_writes_cons_unit_of_not_mem v f (inb ⟨n, hn⟩) (P ⟨n, hn⟩) _ y (hoff ⟨n, hn⟩) (1 : Fin 2)
        (by show (y 1).val < 512 * n ∨ 512 * n + 512 ≤ (y 1).val; omega)]
    exact ih (Nat.le_of_succ_le hn) (by omega)

end Reads

/-! ## The loaded chunks at an entry -/

section Loads

variable (arg1 : Memref sig .tc .vmem S256x4096 .f32) (harg1 : arg1.IsWhole) (arg2 : Memref sig .tc .vmem S4096x256 .f32) (harg2 : arg2.IsWhole) (arg3 : Memref sig .tc .vmem S256x4096 .f32) (harg3 : arg3.IsWhole) (arg4 : Memref sig .tc .vmem S256x4096 .f32) (harg4 : arg4.IsWhole) (x0 : Vec Ideal S256x4096 .f32) (x1 : Vec Ideal S4096x256 .f32) (x2 : Vec Ideal S256x4096 .f32)

theorem ld1_apply (k : Fin k0_t1_loop.trips) (r : Fin 256) (j : Fin 512) (h : 512 * k.val + j.val < 4096) :
    ld1 (F := Ideal) arg1 (harg1.unread x0) k (ix2 r j) = x0 (ix2 r ⟨512 * k.val + j.val, h⟩) := by
  unfold ld1
  refine (harg1.readAt_unread x0 _ _).trans (congrArg x0 ?_)
  funext a
  apply Fin.ext
  match a with
  | ⟨0, _⟩ => show k0_off1 k 0 + 1 * r.val = r.val; rw [k0_off1_eq]; simp
  | ⟨1, _⟩ => show k0_off1 k 1 + 1 * j.val = 512 * k.val + j.val; rw [k0_off1_eq]; simp

theorem ld2_apply (k : Fin k0_t1_loop.trips) (r : Fin 256) (j : Fin 512) (h : 512 * k.val + j.val < 4096) :
    ld2 (F := Ideal) arg2 (harg2.unread x1) k (ix2 j r) = x1 (ix2 ⟨512 * k.val + j.val, h⟩ r) := by
  unfold ld2
  refine (harg2.readAt_unread x1 _ _).trans (congrArg x1 ?_)
  funext a
  apply Fin.ext
  match a with
  | ⟨0, _⟩ => show k0_off2 k 0 + 1 * j.val = 512 * k.val + j.val; rw [k0_off2_eq]; simp
  | ⟨1, _⟩ => show k0_off2 k 1 + 1 * r.val = r.val; rw [k0_off2_eq]; simp

theorem ld3_apply (k : Fin k0_t1_loop.trips) (r : Fin 256) (j : Fin 512) (h : 512 * k.val + j.val < 4096) :
    ld3 (F := Ideal) arg3 (harg3.unread x2) k (ix2 r j) = x2 (ix2 r ⟨512 * k.val + j.val, h⟩) := by
  unfold ld3
  refine (harg3.readAt_unread x2 _ _).trans (congrArg x2 ?_)
  funext a
  apply Fin.ext
  match a with
  | ⟨0, _⟩ => show k0_off1 k 0 + 1 * r.val = r.val; rw [k0_off1_eq]; simp
  | ⟨1, _⟩ => show k0_off1 k 1 + 1 * j.val = 512 * k.val + j.val; rw [k0_off1_eq]; simp

/-- The first loop's tile k at (r, j) is entry j of chunk k of row r of the product. -/
theorem tile1_apply (k : Fin k0_t1_loop.trips) (hk : k.val < 8) (r : Fin 256) (j : Fin 512) :
    k0_pay2 (F := Ideal) (ld1 arg1 (harg1.unread x0) k) (ld2 arg2 (harg2.unread x1) k) (ld3 arg3 (harg3.unread x2) k) (ix2 r j)
      = chunk (Xb x0 x1 x2 r) ⟨k.val, hk⟩ j := by
  have h : 512 * k.val + j.val < 4096 := by have := j.isLt; omega
  rw [pay2_apply, ld1_apply arg1 harg1 x0 k r j h, ld2_apply arg2 harg2 x1 k r j h, ld3_apply arg3 harg3 x2 k r j h]
  rfl

end Loads

/-! ## The three loops on one block -/

section Body

variable (c : Dev nD) (i : grid0.Coords) (arg1 : Memref sig .tc .vmem S256x4096 .f32) (harg1 : arg1.IsWhole) (arg2 : Memref sig .tc .vmem S4096x256 .f32) (harg2 : arg2.IsWhole) (arg3 : Memref sig .tc .vmem S256x4096 .f32) (harg3 : arg3.IsWhole) (arg4 : Memref sig .tc .vmem S256x4096 .f32) (harg4 : arg4.IsWhole) (x0 : Vec Ideal S256x4096 .f32) (x1 : Vec Ideal S4096x256 .f32) (x2 : Vec Ideal S256x4096 .f32)

/-- The first loop's carried value and pieces after n trips, from -∞, the input blocks held whole. -/
def S1 (n : ℕ) := st_k0_t1 (F := Ideal) Variants.none c none i arg1 harg1 arg2 harg2 arg3 harg3 arg4 harg4 (harg1.unread x0) (harg2.unread x1) (harg3.unread x2) k0_pay1 n

/-- The output's buffer after the first loop: its tiles over the buffer's filler. -/
def G2 : BufTy.Contents (Elt Ideal) arg4.view.ty :=
  arg4.view.writes (Elt Ideal) arg4.view.junk (S1 c i arg1 harg1 arg2 harg2 arg3 harg3 arg4 harg4 x0 x1 x2 k0_t1_loop.trips).2

/-- The second loop's carried value and pieces after n trips, from 0, over what the first loop left. -/
def S2 (n : ℕ) := st_k0_t2 (F := Ideal) Variants.none c none i arg1 harg1 arg2 harg2 arg3 harg3 arg4 harg4 (S1 c i arg1 harg1 arg2 harg2 arg3 harg3 arg4 harg4 x0 x1 x2 k0_t1_loop.trips).1 (G2 c i arg1 harg1 arg2 harg2 arg3 harg3 arg4 harg4 x0 x1 x2) k0_pay4 n

/-- The output's buffer after the second loop. -/
def G3 : BufTy.Contents (Elt Ideal) arg4.view.ty :=
  arg4.view.writes (Elt Ideal) arg4.view.junk ((S2 c i arg1 harg1 arg2 harg2 arg3 harg3 arg4 harg4 x0 x1 x2 k0_t2_loop.trips).2 ++ (S1 c i arg1 harg1 arg2 harg2 arg3 harg3 arg4 harg4 x0 x1 x2 k0_t1_loop.trips).2)

/-- The third loop's pieces after n trips, over what the second loop left. -/
def L3 (n : ℕ) := pb_k0_t3 (F := Ideal) Variants.none c none i arg1 harg1 arg2 harg2 arg3 harg3 arg4 harg4 (S2 c i arg1 harg1 arg2 harg2 arg3 harg3 arg4 harg4 x0 x1 x2 k0_t2_loop.trips).1 (G3 c i arg1 harg1 arg2 harg2 arg3 harg3 arg4 harg4 x0 x1 x2) n

/-- The list the body's run leaves: the three loops' pieces, the last loop's first. -/
theorem run_list :
    (kernelRun0_A (F := Ideal) c i arg1 harg1 arg2 harg2 arg3 harg3 arg4 harg4 x0 x1 x2).1
      = L3 c i arg1 harg1 arg2 harg2 arg3 harg3 arg4 harg4 x0 x1 x2 k0_t3_loop.trips ++ ((S2 c i arg1 harg1 arg2 harg2 arg3 harg3 arg4 harg4 x0 x1 x2 k0_t2_loop.trips).2 ++ (S1 c i arg1 harg1 arg2 harg2 arg3 harg3 arg4 harg4 x0 x1 x2 k0_t1_loop.trips).2) := rfl

/-- The index a load of chunk k reads at (r, j): row r, column 512 k + j. -/
theorem chunk_idx {k : ℕ} (off : Fin 2 → ℕ) (hoff : off = ![0, 512 * k]) (inb : ∀ a, off a + S256x512.size a ≤ S256x4096.size a)
    (r : Fin 256) (j : Fin 512) :
    (((Rect.unit (s := S256x4096) off S256x512.size inb).toLoadRect.idx (ix2 r j)) 0).val = r.val
    ∧ (((Rect.unit (s := S256x4096) off S256x512.size inb).toLoadRect.idx (ix2 r j)) 1).val = 512 * k + j.val := by
  subst hoff
  constructor
  · show 0 + 1 * r.val = r.val; omega
  · show 512 * k + 1 * j.val = 512 * k + j.val; omega

/-- The first loop's carried value at row r after n trips is the row's maximum over its first n chunks. -/
theorem max_rows (n : ℕ) (hn : n ≤ 8) (r : Fin 256) :
    (S1 c i arg1 harg1 arg2 harg2 arg3 harg3 arg4 harg4 x0 x1 x2 n).1 (ix2 r (0 : Fin 1)) = cmax (Xb x0 x1 x2 r) n := by
  induction n with
  | zero => exact pay1_apply r
  | succ n ih =>
    have hn' : n < k0_t1_loop.trips := by rw [trips1]; omega
    show (st_k0_t1 (F := Ideal) Variants.none c none i arg1 harg1 arg2 harg2 arg3 harg3 arg4 harg4 (harg1.unread x0) (harg2.unread x1) (harg3.unread x2) k0_pay1 (n + 1)).1 (ix2 r (0 : Fin 1)) = _
    rw [carried1_succ (F := Ideal) Variants.none c none i arg1 harg1 arg2 harg2 arg3 harg3 arg4 harg4 (harg1.unread x0) (harg2.unread x1) (harg3.unread x2) k0_pay1 n hn', pay3_apply, cmax_succ _ n (by omega)]
    refine congrArg₂ max (ih (by omega)) ?_
    exact congrArg (fun g => Finset.fold max negInf g (Finset.univ : Finset (Fin 512)))
      (funext fun j => tile1_apply arg1 harg1 arg2 harg2 arg3 harg3 x0 x1 x2 ⟨n, hn'⟩ (show n < 8 by omega) r j)

/-- … so after the loop it is the row's maximum. -/
theorem max_row (r : Fin 256) : (S1 c i arg1 harg1 arg2 harg2 arg3 harg3 arg4 harg4 x0 x1 x2 k0_t1_loop.trips).1 (ix2 r (0 : Fin 1)) = rowMax (Xb x0 x1 x2 r) :=
  (congrArg (fun n => (S1 c i arg1 harg1 arg2 harg2 arg3 harg3 arg4 harg4 x0 x1 x2 n).1 (ix2 r (0 : Fin 1))) trips1).trans
    ((max_rows c i arg1 harg1 arg2 harg2 arg3 harg3 arg4 harg4 x0 x1 x2 8 (le_refl 8) r).trans (cmax_eight _))

/-- What the first loop left at an entry of chunk k: the product there. -/
theorem after1_apply (k : Fin 8) (r : Fin 256) (j : Fin 512) (y : S256x4096.Idx)
    (hy0 : (y 0).val = r.val) (hy1 : (y 1).val = 512 * k.val + j.val) :
    arg4.view.read (Elt Ideal) (G2 c i arg1 harg1 arg2 harg2 arg3 harg3 arg4 harg4 x0 x1 x2) y = chunk (Xb x0 x1 x2 r) k j := by
  have hk : k.val < k0_t1_loop.trips := by rw [trips1]; exact k.isLt
  show arg4.view.read (Elt Ideal) (arg4.view.writes (Elt Ideal) arg4.view.junk
    (st_k0_t1 (F := Ideal) Variants.none c none i arg1 harg1 arg2 harg2 arg3 harg3 arg4 harg4 (harg1.unread x0) (harg2.unread x1) (harg3.unread x2) k0_pay1 k0_t1_loop.trips).2) y = _
  rw [pieces1 (F := Ideal) Variants.none c none i arg1 harg1 arg2 harg2 arg3 harg3 arg4 harg4 (harg1.unread x0) (harg2.unread x1) (harg3.unread x2) k0_pay1 k0_t1_loop.trips (le_refl _)]
  exact (read_hit arg4.view arg4.view.junk (fun k => k0_off1 k) k0_off1_eq k0_off1_inb _ _ (le_refl _) ⟨k.val, hk⟩ hk r j y hy0 hy1).trans
    (tile1_apply arg1 harg1 arg2 harg2 arg3 harg3 x0 x1 x2 ⟨k.val, hk⟩ k.isLt r j)

/-- What trip k of the second loop finds at (r, j) of its chunk: the product there (no earlier trip of that loop
    touched chunk k). -/
theorem found2_apply (k : Fin k0_t2_loop.trips) (hk8 : k.val < 8) (r : Fin 256) (j : Fin 512) :
    ld4 (F := Ideal) arg4 k (arg4.view.writes (Elt Ideal) (G2 c i arg1 harg1 arg2 harg2 arg3 harg3 arg4 harg4 x0 x1 x2) (S2 c i arg1 harg1 arg2 harg2 arg3 harg3 arg4 harg4 x0 x1 x2 k.val).2) (ix2 r j)
      = chunk (Xb x0 x1 x2 r) ⟨k.val, hk8⟩ j := by
  unfold ld4
  rw [View.readAt_apply]
  obtain ⟨hy0, hy1⟩ := chunk_idx (k := k.val) (k0_off3 k) (k0_off3_eq k) (k0_off3_inb k) r j
  show arg4.view.read (Elt Ideal) (arg4.view.writes (Elt Ideal) (G2 c i arg1 harg1 arg2 harg2 arg3 harg3 arg4 harg4 x0 x1 x2)
    (st_k0_t2 (F := Ideal) Variants.none c none i arg1 harg1 arg2 harg2 arg3 harg3 arg4 harg4 (S1 c i arg1 harg1 arg2 harg2 arg3 harg3 arg4 harg4 x0 x1 x2 k0_t1_loop.trips).1 (G2 c i arg1 harg1 arg2 harg2 arg3 harg3 arg4 harg4 x0 x1 x2) k0_pay4 k.val).2) _ = _
  rw [pieces2 (F := Ideal) Variants.none c none i arg1 harg1 arg2 harg2 arg3 harg3 arg4 harg4 (S1 c i arg1 harg1 arg2 harg2 arg3 harg3 arg4 harg4 x0 x1 x2 k0_t1_loop.trips).1 (G2 c i arg1 harg1 arg2 harg2 arg3 harg3 arg4 harg4 x0 x1 x2) k0_pay4 k.val (le_of_lt k.isLt),
    read_miss arg4.view (G2 c i arg1 harg1 arg2 harg2 arg3 harg3 arg4 harg4 x0 x1 x2) (fun k => k0_off3 k) k0_off3_eq k0_off3_inb _ k.val _ _ (by rw [hy1]; omega)]
  exact after1_apply c i arg1 harg1 arg2 harg2 arg3 harg3 arg4 harg4 x0 x1 x2 ⟨k.val, hk8⟩ r j _ hy0 hy1

/-- The second loop's tile k at (r, j): the exponential of the product there relative to the row's maximum. -/
theorem tile2_apply (k : Fin k0_t2_loop.trips) (hk8 : k.val < 8) (r : Fin 256) (j : Fin 512) :
    k0_pay5 (F := Ideal) (S1 c i arg1 harg1 arg2 harg2 arg3 harg3 arg4 harg4 x0 x1 x2 k0_t1_loop.trips).1
        (ld4 arg4 k (arg4.view.writes (Elt Ideal) (G2 c i arg1 harg1 arg2 harg2 arg3 harg3 arg4 harg4 x0 x1 x2) (S2 c i arg1 harg1 arg2 harg2 arg3 harg3 arg4 harg4 x0 x1 x2 k.val).2)) (ix2 r j)
      = chunk (rowExp (Xb x0 x1 x2 r)) ⟨k.val, hk8⟩ j := by
  rw [pay5_apply, found2_apply c i arg1 harg1 arg2 harg2 arg3 harg3 arg4 harg4 x0 x1 x2 k hk8 r j, max_row c i arg1 harg1 arg2 harg2 arg3 harg3 arg4 harg4 x0 x1 x2 r]
  rfl

/-- The second loop's carried value at row r after n trips: the sum of the row's exponentials over its first n chunks. -/
theorem sum_rows (n : ℕ) (hn : n ≤ 8) (r : Fin 256) :
    (S2 c i arg1 harg1 arg2 harg2 arg3 harg3 arg4 harg4 x0 x1 x2 n).1 (ix2 r (0 : Fin 1)) = csum (rowExp (Xb x0 x1 x2 r)) n := by
  induction n with
  | zero => exact pay4_apply r
  | succ n ih =>
    have hn' : n < k0_t2_loop.trips := by rw [trips2]; omega
    show (st_k0_t2 (F := Ideal) Variants.none c none i arg1 harg1 arg2 harg2 arg3 harg3 arg4 harg4 (S1 c i arg1 harg1 arg2 harg2 arg3 harg3 arg4 harg4 x0 x1 x2 k0_t1_loop.trips).1 (G2 c i arg1 harg1 arg2 harg2 arg3 harg3 arg4 harg4 x0 x1 x2) k0_pay4 (n + 1)).1 (ix2 r (0 : Fin 1)) = _
    rw [carried2_succ (F := Ideal) Variants.none c none i arg1 harg1 arg2 harg2 arg3 harg3 arg4 harg4 (S1 c i arg1 harg1 arg2 harg2 arg3 harg3 arg4 harg4 x0 x1 x2 k0_t1_loop.trips).1 (G2 c i arg1 harg1 arg2 harg2 arg3 harg3 arg4 harg4 x0 x1 x2) k0_pay4 n hn', pay6_apply,
      csum_succ _ n (by omega)]
    refine congrArg₂ (· + ·) (ih (by omega)) ?_
    exact Finset.sum_congr rfl fun j _ => tile2_apply c i arg1 harg1 arg2 harg2 arg3 harg3 arg4 harg4 x0 x1 x2 ⟨n, hn'⟩ (show n < 8 by omega) r j

/-- … so after the loop it is the row's sum of exponentials. -/
theorem sum_row (r : Fin 256) : (S2 c i arg1 harg1 arg2 harg2 arg3 harg3 arg4 harg4 x0 x1 x2 k0_t2_loop.trips).1 (ix2 r (0 : Fin 1)) = rowSum (Xb x0 x1 x2 r) :=
  (congrArg (fun n => (S2 c i arg1 harg1 arg2 harg2 arg3 harg3 arg4 harg4 x0 x1 x2 n).1 (ix2 r (0 : Fin 1))) trips2).trans
    ((sum_rows c i arg1 harg1 arg2 harg2 arg3 harg3 arg4 harg4 x0 x1 x2 8 (le_refl 8) r).trans (csum_eight _))

end Body

/-! ## The block the body leaves -/

section Out

variable (c : Dev nD) (i : grid0.Coords) (arg1 : Memref sig .tc .vmem S256x4096 .f32) (harg1 : arg1.IsWhole) (arg2 : Memref sig .tc .vmem S4096x256 .f32) (harg2 : arg2.IsWhole) (arg3 : Memref sig .tc .vmem S256x4096 .f32) (harg3 : arg3.IsWhole) (arg4 : Memref sig .tc .vmem S256x4096 .f32) (harg4 : arg4.IsWhole) (x0 : Vec Ideal S256x4096 .f32) (x1 : Vec Ideal S4096x256 .f32) (x2 : Vec Ideal S256x4096 .f32)

/-- What the second loop left at an entry of chunk k: the exponential there. -/
theorem after2_apply (k : Fin 8) (r : Fin 256) (j : Fin 512) (y : S256x4096.Idx)
    (hy0 : (y 0).val = r.val) (hy1 : (y 1).val = 512 * k.val + j.val) :
    arg4.view.read (Elt Ideal) (G3 c i arg1 harg1 arg2 harg2 arg3 harg3 arg4 harg4 x0 x1 x2) y = chunk (rowExp (Xb x0 x1 x2 r)) k j := by
  have hk : k.val < k0_t2_loop.trips := by rw [trips2]; exact k.isLt
  show arg4.view.read (Elt Ideal) (arg4.view.writes (Elt Ideal) arg4.view.junk
    ((st_k0_t2 (F := Ideal) Variants.none c none i arg1 harg1 arg2 harg2 arg3 harg3 arg4 harg4 (S1 c i arg1 harg1 arg2 harg2 arg3 harg3 arg4 harg4 x0 x1 x2 k0_t1_loop.trips).1 (G2 c i arg1 harg1 arg2 harg2 arg3 harg3 arg4 harg4 x0 x1 x2) k0_pay4 k0_t2_loop.trips).2
      ++ (S1 c i arg1 harg1 arg2 harg2 arg3 harg3 arg4 harg4 x0 x1 x2 k0_t1_loop.trips).2)) y = _
  rw [View.writes_append, pieces2 (F := Ideal) Variants.none c none i arg1 harg1 arg2 harg2 arg3 harg3 arg4 harg4 (S1 c i arg1 harg1 arg2 harg2 arg3 harg3 arg4 harg4 x0 x1 x2 k0_t1_loop.trips).1 (G2 c i arg1 harg1 arg2 harg2 arg3 harg3 arg4 harg4 x0 x1 x2) k0_pay4 k0_t2_loop.trips (le_refl _)]
  exact (read_hit arg4.view _ (fun k => k0_off3 k) k0_off3_eq k0_off3_inb _ _ (le_refl _) ⟨k.val, hk⟩ hk r j y hy0 hy1).trans
    (tile2_apply c i arg1 harg1 arg2 harg2 arg3 harg3 arg4 harg4 x0 x1 x2 ⟨k.val, hk⟩ k.isLt r j)

/-- What trip k of the third loop finds at (r, j) of its chunk: the exponential there. -/
theorem found3_apply (k : Fin k0_t3_loop.trips) (hk8 : k.val < 8) (r : Fin 256) (j : Fin 512) :
    ld5 (F := Ideal) arg4 k (arg4.view.writes (Elt Ideal) (G3 c i arg1 harg1 arg2 harg2 arg3 harg3 arg4 harg4 x0 x1 x2) (L3 c i arg1 harg1 arg2 harg2 arg3 harg3 arg4 harg4 x0 x1 x2 k.val)) (ix2 r j)
      = chunk (rowExp (Xb x0 x1 x2 r)) ⟨k.val, hk8⟩ j := by
  unfold ld5
  rw [View.readAt_apply]
  obtain ⟨hy0, hy1⟩ := chunk_idx (k := k.val) (k0_off4 k) (k0_off4_eq k) (k0_off4_inb k) r j
  show arg4.view.read (Elt Ideal) (arg4.view.writes (Elt Ideal) (G3 c i arg1 harg1 arg2 harg2 arg3 harg3 arg4 harg4 x0 x1 x2)
    (pb_k0_t3 (F := Ideal) Variants.none c none i arg1 harg1 arg2 harg2 arg3 harg3 arg4 harg4 (S2 c i arg1 harg1 arg2 harg2 arg3 harg3 arg4 harg4 x0 x1 x2 k0_t2_loop.trips).1 (G3 c i arg1 harg1 arg2 harg2 arg3 harg3 arg4 harg4 x0 x1 x2) k.val)) _ = _
  rw [pieces3 (F := Ideal) Variants.none c none i arg1 harg1 arg2 harg2 arg3 harg3 arg4 harg4 (S2 c i arg1 harg1 arg2 harg2 arg3 harg3 arg4 harg4 x0 x1 x2 k0_t2_loop.trips).1 (G3 c i arg1 harg1 arg2 harg2 arg3 harg3 arg4 harg4 x0 x1 x2) k.val (le_of_lt k.isLt),
    read_miss arg4.view (G3 c i arg1 harg1 arg2 harg2 arg3 harg3 arg4 harg4 x0 x1 x2) (fun k => k0_off4 k) k0_off4_eq k0_off4_inb _ k.val _ _ (by rw [hy1]; omega)]
  exact after2_apply c i arg1 harg1 arg2 harg2 arg3 harg3 arg4 harg4 x0 x1 x2 ⟨k.val, hk8⟩ r j _ hy0 hy1

/-- The third loop's tile k at (r, j): the row's softmax at column 512 k + j. -/
theorem tile3_apply (k : Fin k0_t3_loop.trips) (hk8 : k.val < 8) (r : Fin 256) (j : Fin 512) :
    k0_pay7 (F := Ideal) (S2 c i arg1 harg1 arg2 harg2 arg3 harg3 arg4 harg4 x0 x1 x2 k0_t2_loop.trips).1
        (ld5 arg4 k (arg4.view.writes (Elt Ideal) (G3 c i arg1 harg1 arg2 harg2 arg3 harg3 arg4 harg4 x0 x1 x2) (L3 c i arg1 harg1 arg2 harg2 arg3 harg3 arg4 harg4 x0 x1 x2 k.val))) (ix2 r j)
      = rowSoftmax (Xb x0 x1 x2 r) ⟨512 * k.val + j.val, by have := j.isLt; omega⟩ := by
  rw [pay7_apply, found3_apply c i arg1 harg1 arg2 harg2 arg3 harg3 arg4 harg4 x0 x1 x2 k hk8 r j, sum_row c i arg1 harg1 arg2 harg2 arg3 harg3 arg4 harg4 x0 x1 x2 r]
  rfl

/-- THE BLOCK: what the body leaves at (r, d) is the softmax of row r of the product at d. -/
theorem out_apply (r : Fin 256) (d : Fin 4096) :
    out0_A_3 (F := Ideal) c i arg1 harg1 arg2 harg2 arg3 harg3 arg4 harg4 x0 x1 x2 (ix2 r d)
      = rowSoftmax (Xb x0 x1 x2 r) d := by
  have hk8 : d.val / 512 < 8 := by have := d.isLt; omega
  have hk : d.val / 512 < k0_t3_loop.trips := by rw [trips3]; exact hk8
  have hj : d.val % 512 < 512 := Nat.mod_lt _ (by norm_num)
  unfold out0_A_3
  rw [run_list]
  show VO0_3.read (Elt Ideal) (VO0_3.writes (Elt Ideal) VO0_3.junk
    (pb_k0_t3 (F := Ideal) Variants.none c none i arg1 harg1 arg2 harg2 arg3 harg3 arg4 harg4 (S2 c i arg1 harg1 arg2 harg2 arg3 harg3 arg4 harg4 x0 x1 x2 k0_t2_loop.trips).1 (G3 c i arg1 harg1 arg2 harg2 arg3 harg3 arg4 harg4 x0 x1 x2) k0_t3_loop.trips
      ++ ((S2 c i arg1 harg1 arg2 harg2 arg3 harg3 arg4 harg4 x0 x1 x2 k0_t2_loop.trips).2 ++ (S1 c i arg1 harg1 arg2 harg2 arg3 harg3 arg4 harg4 x0 x1 x2 k0_t1_loop.trips).2))) (ix2 r d) = _
  rw [View.writes_append, pieces3 (F := Ideal) Variants.none c none i arg1 harg1 arg2 harg2 arg3 harg3 arg4 harg4 (S2 c i arg1 harg1 arg2 harg2 arg3 harg3 arg4 harg4 x0 x1 x2 k0_t2_loop.trips).1 (G3 c i arg1 harg1 arg2 harg2 arg3 harg3 arg4 harg4 x0 x1 x2) k0_t3_loop.trips (le_refl _)]
  refine (read_hit VO0_3 _ (fun k => k0_off4 k) k0_off4_eq k0_off4_inb _ _ (le_refl _) ⟨d.val / 512, hk⟩ hk r ⟨d.val % 512, hj⟩
    (ix2 r d) rfl (by show d.val = 512 * (d.val / 512) + d.val % 512; omega)).trans ?_
  refine (tile3_apply c i arg1 harg1 arg2 harg2 arg3 harg3 arg4 harg4 x0 x1 x2 ⟨d.val / 512, hk⟩ hk8 r ⟨d.val % 512, hj⟩).trans ?_
  exact congrArg (rowSoftmax (Xb x0 x1 x2 r)) (Fin.ext (by show 512 * (d.val / 512) + d.val % 512 = d.val; omega))

end Out

end Cert.KernelIdeal.Block

end
-- ==== Proof.KernelArray.lean ====
/-
  From the blocks to the whole array.

  Grid point t (of 32) works on rows 256 t … 256 t + 255: its query and value blocks are those rows of the arrays, its key
  block is those COLUMNS of the key (all 4096 rows), and it writes those rows of the result. Row r of the block is row
  256 t + r of the array, so row r of the block's product is row 256 t + r of the whole product, and the block the body
  leaves is that block of the array function G. The 32 blocks tile the result, so the result is G of the arguments.
-/
import proofs.«158101_j66486093742705_2_alg».proof.Proof.KernelIdealValue
import proofs.«158101_j66486093742705_2_alg».proof.Proof.KernelBlock

set_option maxRecDepth 16384

noncomputable section

namespace Cert.KernelIdeal.Whole

open Cert.KernelIdeal Cert.KernelIdeal.Gen Cert.KernelIdeal.GenP Cert.KernelIdeal.ValueP Cert.KernelIdeal.Block Cert.Softmax
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the 32 points: point t takes row block t of the query, the value and the result, and
    column block t of the key. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 32 := Nat.lt_of_lt_of_eq t.isLt N_0

/-- The query block of point t at (r, d) is the query at (256 t + r, d). -/
theorem blk0_apply (c : Dev nD) (t : Fin cfg0.N) (r : Fin 256) (d : Fin 4096) :
    iblk m c 0 t (ix2 r d) = V m c main_arg0 (ix2 ⟨256 * t.val + r.val, by have := t_lt t; omega⟩ d) := by
  show V m c main_arg0 (((cfg0.win 0).blk t).view.emb (ix2 r d)) = _
  refine congrArg (V m c main_arg0) (funext fun a => Fin.ext ?_)
  obtain ⟨e0, e1, -⟩ := idx_facts t
  match a with
  | ⟨0, _⟩ => show win0_0.index t (0 : Fin 2) * 256 + 1 * r.val = 256 * t.val + r.val; omega
  | ⟨1, _⟩ => show win0_0.index t (1 : Fin 2) * 4096 + 1 * d.val = d.val; omega

/-- The key block of point t at (d, r) is the key at (d, 256 t + r). -/
theorem blk1_apply (c : Dev nD) (t : Fin cfg0.N) (r : Fin 256) (d : Fin 4096) :
    iblk m c 1 t (ix2 d r) = V m c main_arg1 (ix2 d ⟨256 * t.val + r.val, by have := t_lt t; omega⟩) := by
  show V m c main_arg1 (((cfg0.win 1).blk t).view.emb (ix2 d r)) = _
  refine congrArg (V m c main_arg1) (funext fun a => Fin.ext ?_)
  obtain ⟨-, -, e2, e3, -⟩ := idx_facts t
  match a with
  | ⟨0, _⟩ => show win0_1.index t (0 : Fin 2) * 4096 + 1 * d.val = d.val; omega
  | ⟨1, _⟩ => show win0_1.index t (1 : Fin 2) * 256 + 1 * r.val = 256 * t.val + r.val; omega

/-- The value block of point t at (r, d) is the value at (256 t + r, d). -/
theorem blk2_apply (c : Dev nD) (t : Fin cfg0.N) (r : Fin 256) (d : Fin 4096) :
    iblk m c 2 t (ix2 r d) = V m c main_arg2 (ix2 ⟨256 * t.val + r.val, by have := t_lt t; omega⟩ d) := by
  show V m c main_arg2 (((cfg0.win 2).blk t).view.emb (ix2 r d)) = _
  refine congrArg (V m c main_arg2) (funext fun a => Fin.ext ?_)
  obtain ⟨-, -, -, -, e4, e5, -⟩ := idx_facts t
  match a with
  | ⟨0, _⟩ => show win0_2.index t (0 : Fin 2) * 256 + 1 * r.val = 256 * t.val + r.val; omega
  | ⟨1, _⟩ => show win0_2.index t (1 : Fin 2) * 4096 + 1 * d.val = d.val; omega

/-- Row r of the product inside point t's blocks is row 256 t + r of the whole product. -/
theorem row_eq (c : Dev nD) (t : Fin cfg0.N) (r : Fin 256) :
    Xb (iblk m c 0 t) (iblk m c 1 t) (iblk m c 2 t) r
      = X (V m c main_arg0) (V m c main_arg1) (V m c main_arg2) ⟨256 * t.val + r.val, by have := t_lt t; omega⟩ := by
  funext d
  unfold Xb X
  rw [blk0_apply m c t r d, blk1_apply m c t r d, blk2_apply m c t r d]

/-- The result as one function of the arrays as the region finds them. -/
def Gc (c : Dev nD) : Buf (Elt Ideal) ((c : Thread nD τ).loc main_v0) :=
  G (V m c main_arg0) (V m c main_arg1) (V m c main_arg2)

/-- What the body leaves at an entry of point t's block is G at that entry's place in the array. -/
theorem point_eq (c : Dev nD) (t : Fin cfg0.N) (y : S256x4096.Idx) :
    out0_A_3 (F := Ideal) c (grid0.coords t) (ms0_0 t) (hs0_0 t) (ms0_1 t) (hs0_1 t) (ms0_2 t) (hs0_2 t) (ms0_3 t) (hs0_3 t)
        (iblk m c 0 t) (iblk m c 1 t) (iblk m c 2 t) y
      = Gc m c (((cfg0.win 3).blk t).view.emb y) := by
  obtain ⟨r, d, rfl⟩ : ∃ (r : Fin 256) (d : Fin 4096), y = ix2 r d := ⟨y 0, y 1, eq_ix2 y⟩
  rw [out_apply, row_eq m c t r]
  obtain ⟨-, -, -, -, -, -, e6, e7⟩ := idx_facts t
  unfold Gc G
  refine congrArg₂ rowSoftmax (congrArg (X (V m c main_arg0) (V m c main_arg1) (V m c main_arg2)) (Fin.ext ?_)) (Fin.ext ?_)
  · show 256 * t.val + r.val = win0_3.index t (0 : Fin 2) * 256 + 1 * r.val; omega
  · show d.val = win0_3.index t (1 : Fin 2) * 4096 + 1 * d.val; omega

/-- WHAT POINT t WRITES BACK is block t of G of the arrays as the region finds them. -/
theorem flushed_eq (c : Dev nD) (t : Fin cfg0.N) :
    (dats m 0 c).flushed 3 t = ((cfg0.win 3).blk t).view.read (Elt Ideal) (Gc m c) := by
  rw [flushed3_A]
  funext y
  exact point_eq m c t y

/-- An index of the array is in point t's block iff each coordinate is in the block's range on its axis. -/
theorem mem_blk (t : Fin cfg0.N) (i : S8192x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v0).slice (win0_3.rect t)).set ↔ _
  rw [View.set_slice_whole, Rect.mem_set_unit]
  exact Iff.rfl

/-- Every index of the result lies in the block of the point that owns its row. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : (i 0).val / 256 < cfg0.N := by show _ < grid0.N; rw [N_0]; omega
  refine ⟨⟨(i 0).val / 256, hN⟩, flush0_3 _, ?_⟩
  rw [mem_blk]
  obtain ⟨-, -, -, -, -, -, e6, e7⟩ := idx_facts ⟨(i 0).val / 256, hN⟩
  intro a
  match a with
  | ⟨0, _⟩ =>
    show win0_3.index ⟨(i 0).val / 256, hN⟩ (0 : Fin 2) * 256 ≤ (i 0).val ∧ (i 0).val < win0_3.index ⟨(i 0).val / 256, hN⟩ (0 : Fin 2) * 256 + 256
    have e6' : win0_3.index ⟨(i 0).val / 256, hN⟩ (0 : Fin 2) = (i 0).val / 256 := e6
    omega
  | ⟨1, _⟩ =>
    show win0_3.index ⟨(i 0).val / 256, hN⟩ (1 : Fin 2) * 4096 ≤ (i 1).val ∧ (i 1).val < win0_3.index ⟨(i 0).val / 256, hN⟩ (1 : Fin 2) * 4096 + 4096
    omega

/-- THE ARRAY after the run: G of the argument arrays. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 (Gc m c) (fun t _ => flushed_eq m c t) cover

/-- The kernel's run: the result array ends at G of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.RefValue.lean ====
/-
  The reference side of the row softmax: the reference program's result, read one operation at a time, is the
  specification G, index by index, over the extended reals.

  The reference divides q(p, d) * k(d, p) by √4096. The word 0x45800000 denotes the real 4096, whose square root is 64, and
  the quotient of any extended real by the nonzero real 64 is its product with 1/64, which is what the word 0x3C800000
  denotes: so the scaled product at (p, d) is x(p, d) of the specification. The maximum of row p is the fold of max over
  the row's 4096 coordinates from the word 0xFF800000, which denotes -∞; the further maximum with -∞ changes nothing, since
  -∞ is the least extended real. The exponentials are then those of x(p, ·) - M p, their sum from the zero word is the
  sum over the row (0 + s = s), and the quotient of the two is the softmax's entry.
-/
import proofs.«158101_j66486093742705_2_alg».proof.Proof.Gen.ReferenceIdeal.Read
import proofs.«158101_j66486093742705_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.Softmax
open Idealize.ShloMosaic Idealize.ShloMosaic.TcCoe Idealize.SL.Sem Idealize.ShloMosaic.StableHlo Idealize.ShloMosaic.ValueIdx
open scoped BigOperators

/-- The word 0x45800000 denotes the real 4096. -/
theorem ofBits_4096 : Ideal.ofBits .f32 0x45800000#32 = ((4096 : ℝ) : EReal) := by
  simp [Ideal.ofBits, Ideal.ieee, -EReal.coe_mul]; norm_num

/-- The word 0x3C800000 denotes the real 1/64. -/
theorem scale_inv64 : Cert.Softmax.scale = ((1 / 64 : ℝ) : EReal) := by
  unfold Cert.Softmax.scale
  simp [Ideal.ofBits, Ideal.ieee, -EReal.coe_mul]; norm_num

/-- The word 0xFF800000 denotes -∞. -/
theorem ofBits_negInf : Ideal.ofBits .f32 0xFF800000#32 = (⊥ : EReal) := by
  simp [Ideal.ofBits, Ideal.ieee]

theorem negInf_bot : Cert.Softmax.negInf = (⊥ : EReal) := ofBits_negInf

/-- The square root of 4096 is 64. -/
theorem sqrt_4096 : Ideal.sqrt ((4096 : ℝ) : EReal) = ((64 : ℝ) : EReal) := by
  rw [Ideal.sqrt_coe, if_neg (by norm_num)]
  congr 1
  rw [show (4096 : ℝ) = 64 ^ 2 by norm_num]
  exact Real.sqrt_sq (by norm_num)

/-! ## Indices -/

/-- The transposed index of (p, d) is (d, p). -/
theorem idx_v1 (p : Fin 8192) (d : Fin 4096) : idx_main_v1 (ix2 p d) = ix2 d p :=
  funext fun a => by match a with | ⟨0, _⟩ => rfl | ⟨1, _⟩ => rfl

/-- The two keepdims broadcasts of a row statistic read row p at (p, d). -/
theorem idx_v9_v10 (p : Fin 8192) (d : Fin 4096) : idx_main_v9 (idx_main_v10 (ix2 p d)) = ix1 p :=
  funext fun a => by match a with | ⟨0, _⟩ => rfl

theorem idx_v14_v15 (p : Fin 8192) (d : Fin 4096) : idx_main_v14 (idx_main_v15 (ix2 p d)) = ix1 p :=
  funext fun a => by match a with | ⟨0, _⟩ => rfl

/-- The summed index over row p with coordinate k is (p, k). -/
theorem idx_v13 (p : Fin 8192) (k : Fin 4096) : idx_main_v13 (ix1 p) k = ix2 p k :=
  funext fun a => by match a with | ⟨0, _⟩ => rfl | ⟨1, _⟩ => rfl

/-- Row p of the reduced shape with coordinate k put back on the dropped axis is (p, k). -/
theorem lift_ix1 (h : S8192x4096.Reduces [1] S8192) (p : Fin 8192) (k : Fin (S8192x4096.size 1)) :
    h.lift (ix1 p) k = ix2 p (⟨k.val, k.isLt⟩ : Fin 4096) := by
  funext c; apply Fin.ext
  fin_cases c <;> rfl

/-! ## The stages at an index -/

section Stages

variable (x0 : (⟨S8192x4096, .f32⟩ : BufTy).Contents (Elt Ideal)) (x1 : (⟨S4096x8192, .f32⟩ : BufTy).Contents (Elt Ideal))
  (x2 : (⟨S8192x4096, .f32⟩ : BufTy).Contents (Elt Ideal))

/-- The scaled product at (p, d): the quotient by √4096 = 64 is the product with 2^-6. -/
theorem v5_apply (p : Fin 8192) (d : Fin 4096) :
    val_main_v5 (F := Ideal) x0 x1 x2 (ix2 p d) = X x0 x1 x2 p d := by
  rw [val_main_v5_apply, val_main_v4_apply, val_main_v2_apply, val_main_v1_apply, val_main_v3_apply, val_main_v0_apply,
    val_main_cst_apply, idx_v1]
  simp only [Ideal.mulf_def, Ideal.hostDivf_def, Ideal.hostUnary_sqrt_def, Ideal.ofBits_def, ofBits_4096, sqrt_4096,
    Ideal.div_coe (by norm_num : (64 : ℝ) ≠ 0)]
  unfold X
  rw [scale_inv64]

/-- The row maximum at p. -/
theorem v8_apply (p : Fin 8192) :
    val_main_v8 (F := Ideal) x0 x1 x2 (ix1 p) = rowMax (X x0 x1 x2 p) := by
  have h : S8192x4096.Reduces [1] S8192 := by decide
  rw [val_main_v8_apply, val_main_v7_apply, val_main_cst_1_apply]
  unfold val_main_v6
  rw [Host.reduce_eq_fold_single FloatOps.maximumf _ _ reducesTo_S8192x4096_S8192_d1 h h_S_, val_main_cst_0_apply]
  have hf : (val_main_v5 (F := Ideal) x0 x1 x2 ∘ h.lift (ix1 p)) = fun k : Fin 4096 => X x0 x1 x2 p k :=
    funext fun k => (congrArg (val_main_v5 (F := Ideal) x0 x1 x2) (lift_ix1 h p k)).trans (v5_apply x0 x1 x2 p _)
  have hfold : (Finset.univ : Finset (Fin (S8192x4096.size 1))).fold FloatOps.maximumf (FloatOps.ofBits (F := Ideal) .f32 0xFF800000#32)
      (val_main_v5 (F := Ideal) x0 x1 x2 ∘ h.lift (ix1 p)) = rowMax (X x0 x1 x2 p) :=
    congrArg (fun f => Finset.fold max (Ideal.ofBits .f32 0xFF800000#32) f (Finset.univ : Finset (Fin 4096))) hf
  rw [hfold]
  show max (Ideal.ofBits .f32 0xFF800000#32) _ = _
  rw [ofBits_negInf]
  exact max_bot_left _

/-- The exponential relative to the row maximum at (p, d). -/
theorem v12_apply (p : Fin 8192) (d : Fin 4096) :
    val_main_v12 (F := Ideal) x0 x1 x2 (ix2 p d) = rowExp (X x0 x1 x2 p) d := by
  rw [val_main_v12_apply, val_main_v11_apply, val_main_v10_apply, val_main_v9_apply, idx_v9_v10, v8_apply, v5_apply]
  rfl

/-- The row sum at p. -/
theorem v13_apply (p : Fin 8192) :
    val_main_v13 (F := Ideal) x0 x1 x2 (ix1 p) = rowSum (X x0 x1 x2 p) := by
  rw [val_main_v13_apply, val_main_cst_2_apply]
  show Ideal.ofBits .f32 0x00000000#32 + _ = _
  rw [Ideal.ofBits_zero_f32, zero_add]
  exact Finset.sum_congr rfl fun k _ => by rw [idx_v13, v12_apply]

end Stages

/-- The reference's result is the specification, index by index. -/
theorem ref_eq (x0 : (⟨Cert.ReferenceIdeal.S8192x4096, .f32⟩ : BufTy).Contents (Elt Ideal)) (x1 : (⟨Cert.ReferenceIdeal.S4096x8192, .f32⟩ : BufTy).Contents (Elt Ideal)) (x2 : (⟨Cert.ReferenceIdeal.S8192x4096, .f32⟩ : BufTy).Contents (Elt Ideal)) :
    Cert.ReferenceIdeal.Read.val_main_v16 (F := Ideal) x0 x1 x2 = Cert.Softmax.G x0 x1 x2 := by
  funext j
  obtain ⟨p, d, rfl⟩ : ∃ (p : Fin 8192) (d : Fin 4096), j = ix2 p d := ⟨j 0, j 1, eq_ix2 j⟩
  rw [val_main_v16_apply, val_main_v15_apply, val_main_v14_apply, idx_v14_v15, v13_apply, v12_apply]
  rfl

end Cert.ReferenceIdeal.RefValue

end
-- ==== Proof.lean ====
/-
  The kernel computes, for a query q and a value v of shape [8192, 4096] and a key k of shape [4096, 8192], the row
  softmax of the elementwise product x(p, d) = ((q(p, d) * k(d, p)) * 2^-6) * v(p, d): 32 grid points of 256 rows each;
  inside a point three passes over eight column chunks of 512 — the product and a running row maximum from -∞, then
  exp (x - maximum) and a running row sum from 0, then the division by the sum. The reference computes
  ((q * transpose k) / sqrt 4096) * v and jax's softmax along each row.

  Over the extended reals the two are one function of the arguments (`Cert.Softmax.G`, Proof/Spec.lean): sqrt 4096 = 64
  and dividing by 64 is multiplying by 2^-6 on every extended real; a row's maximum taken chunk after chunk from -∞ is
  its maximum, and the maximum with -∞ changes nothing; a row's sum taken chunk after chunk from 0 is its sum. Only
  commutativity and associativity of max and + are used, so the precondition (finite inputs) is not opened.

  The modules: Proof/Spec.lean (the function G and the chunked maximum and sum), Proof/Chunks.lean (chunked = whole),
  Proof/RefValue.lean (the reference's term is G), Proof/KernelTiles.lean (each of the body's loops as a list of eight
  column tiles), Proof/KernelPayloads.lean (the body's arithmetic at an entry), Proof/KernelBlock.lean (the block a grid
  point leaves is the softmax of its rows), Proof/KernelArray.lean (the 32 blocks are the array G), and here the five claims.
  The ideal pass rewrote nothing, so `preserves` is `True`.
-/
import proofs.«158101_j66486093742705_2_alg».proof.Defs
import proofs.«158101_j66486093742705_2_alg».proof.Proof.Gen.Kernel
import proofs.«158101_j66486093742705_2_alg».proof.Proof.Gen.KernelIdeal
import proofs.«158101_j66486093742705_2_alg».proof.Proof.Gen.ReferenceIdeal
import proofs.«158101_j66486093742705_2_alg».proof.Proof.Gen.Pre_finite_inputs
import proofs.«158101_j66486093742705_2_alg».proof.Proof.Gen.ReferenceIdeal.Run
import proofs.«158101_j66486093742705_2_alg».proof.Proof.Gen.ReferenceIdeal.Read
import proofs.«158101_j66486093742705_2_alg».proof.Proof.KernelFrame
import proofs.«158101_j66486093742705_2_alg».proof.Proof.KernelIdealFrame
import proofs.«158101_j66486093742705_2_alg».proof.Proof.KernelArray
import proofs.«158101_j66486093742705_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- Over the extended reals, from memories that agree on the arguments, the kernel's result array and the reference's
    both end at G of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
